-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16384x256 : Shape := ⟨3, ![4, 16384, 256]⟩
abbrev S_ : Shape := ⟨0, ![]⟩

class Facts : Prop where
  bcast_S_S4x16384x256 : S_.BroadcastsInDim S4x16384x256 (![] : Fin 0 → Fin S4x16384x256.rank)
  reducesTo_S4x16384x256_S_d0_1_2 : S4x16384x256.ReducesTo [0, 1, 2] S_
  h_S_ : 0 < S_.numel

variable [Facts]

def fn {F : FTy → Type} [FloatOps F] (main_arg0 : FVec F S4x16384x256 .f32) (main_arg1 : FVec F S4x16384x256 .f32) (main_arg2 : FVec F S4x16384x256 .f32) : IVec S_ 1 :=
  let main_v0 : FVec F S4x16384x256 .f32 := Host.absf main_arg0
  let main_cst : FVec F S_ .f32 := constant S_ .f32 0x7F800000#32
  let main_v1 : FVec F S4x16384x256 .f32 := broadcastInDim S4x16384x256 ![] bcast_S_S4x16384x256 main_cst
  let main_v2 : IVec S4x16384x256 1 := cmpf .olt main_v0 main_v1
  let main_c : IVec S_ 1 := constantI S_ 1 1#1
  let main_v3 : IVec S_ 1 := (fun x v => Host.reduce IntOp.andi x v reducesTo_S4x16384x256_S_d0_1_2 h_S_) main_v2 main_c
  let main_v4 : FVec F S4x16384x256 .f32 := Host.absf main_arg1
  let main_cst_0 : FVec F S_ .f32 := constant S_ .f32 0x7F800000#32
  let main_v5 : FVec F S4x16384x256 .f32 := broadcastInDim S4x16384x256 ![] bcast_S_S4x16384x256 main_cst_0
  let main_v6 : IVec S4x16384x256 1 := cmpf .olt main_v4 main_v5
  let main_c_1 : IVec S_ 1 := constantI S_ 1 1#1
  let main_v7 : IVec S_ 1 := (fun x v => Host.reduce IntOp.andi x v reducesTo_S4x16384x256_S_d0_1_2 h_S_) main_v6 main_c_1
  let main_v8 : IVec S_ 1 := andi main_v3 main_v7
  let main_v9 : FVec F S4x16384x256 .f32 := Host.absf main_arg2
  let main_cst_2 : FVec F S_ .f32 := constant S_ .f32 0x7F800000#32
  let main_v10 : FVec F S4x16384x256 .f32 := broadcastInDim S4x16384x256 ![] bcast_S_S4x16384x256 main_cst_2
  let main_v11 : IVec S4x16384x256 1 := cmpf .olt main_v9 main_v10
  let main_c_3 : IVec S_ 1 := constantI S_ 1 1#1
  let main_v12 : IVec S_ 1 := (fun x v => Host.reduce IntOp.andi x v reducesTo_S4x16384x256_S_d0_1_2 h_S_) main_v11 main_c_3
  let main_v13 : IVec S_ 1 := andi main_v8 main_v12
  main_v13
-- ==== Kernel.lean ====
abbrev S4x16384x256 : Shape := ⟨3, ![4, 16384, 256]⟩
abbrev S4x256x256 : Shape := ⟨3, ![4, 256, 256]⟩
abbrev S1x4096x256 : Shape := ⟨3, ![1, 4096, 256]⟩
abbrev S1x256x256 : Shape := ⟨3, ![1, 256, 256]⟩
abbrev S256x256 : Shape := ⟨2, ![256, 256]⟩
abbrev S4096x256 : Shape := ⟨2, ![4096, 256]⟩
abbrev S4096 : Shape := ⟨1, ![4096]⟩
abbrev S4096x1 : Shape := ⟨2, ![4096, 1]⟩

abbrev nBuf : Space → Nat
  | .hbm => 5
  | .vmem => 11
  | .smem => 0
  | _ => 0

abbrev bufTy : (tb : Table) → Fin (tcTables nBuf tb) → BufTy
  | .hbm, ⟨0, _⟩ => ⟨S4x16384x256, .f32⟩
  | .hbm, ⟨1, _⟩ => ⟨S4x16384x256, .f32⟩
  | .hbm, ⟨2, _⟩ => ⟨S4x16384x256, .f32⟩
  | .hbm, ⟨3, _⟩ => ⟨S4x256x256, .f32⟩
  | .hbm, ⟨4, _⟩ => ⟨S4x16384x256, .f32⟩
  | .local _ .vmem, ⟨0, _⟩ => ⟨S1x4096x256, .f32⟩
  | .local _ .vmem, ⟨1, _⟩ => ⟨S1x4096x256, .f32⟩
  | .local _ .vmem, ⟨2, _⟩ => ⟨S1x4096x256, .f32⟩
  | .local _ .vmem, ⟨3, _⟩ => ⟨S1x4096x256, .f32⟩
  | .local _ .vmem, ⟨4, _⟩ => ⟨S1x256x256, .f32⟩
  | .local _ .vmem, ⟨5, _⟩ => ⟨S1x256x256, .f32⟩
  | .local _ .vmem, ⟨6, _⟩ => ⟨S1x4096x256, .f32⟩
  | .local _ .vmem, ⟨7, _⟩ => ⟨S1x4096x256, .f32⟩
  | .local _ .vmem, ⟨8, _⟩ => ⟨S1x256x256, .f32⟩
  | .local _ .vmem, ⟨9, _⟩ => ⟨S1x4096x256, .f32⟩
  | .local _ .vmem, ⟨10, _⟩ => ⟨S1x4096x256, .f32⟩
  | _, _ => ⟨S4x16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![4, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x4096x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1x256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false]

abbrev stage1_2 : Fin 2 → Memref sig .tc .vmem S1x4096x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  shapeCasts_S256x256_S1x256x256 : S256x256.ShapeCasts S1x256x256
  inb_S1x4096x256_S1x4096x256_0_0_0 : ∀ a, (![0, 0, 0] : Fin 3 → Nat) a + S1x4096x256.size a ≤ S1x4096x256.size a
  h_S1x4096x256 : 0 < S1x4096x256.numel
  shapeCasts_S1x4096x256_S4096x256 : S1x4096x256.ShapeCasts S4096x256
  bitsLt_bf16_f32 : FTy.bits .bf16 < FTy.bits .f32
  reduces_S4096x256_S4096 : S4096x256.Reduces [1] S4096
  shapeCasts_S4096_S4096x1 : S4096.ShapeCasts S4096x1
  broadcasts_S4096x1_S4096x256 : S4096x1.Broadcasts S4096x256
  shapeCasts_S4096x256_S1x4096x256 : S4096x256.ShapeCasts S1x4096x256
  dot_S4096x256_S4096x256_S256x256_0_0_1_1_n_n_wf : DotDims.WF S4096x256 S4096x256 S256x256 [0] [0] [1] [1] [] []
  dot_S4096x256_S256x256_S4096x256_1_0_0_1_n_n_wf : DotDims.WF S4096x256 S256x256 S4096x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x256.size a ≤ S4x16384x256.size a
  hwx0_0 : ∀ i : grid0.Coords, EltTy.bits .f32 = 32 ∨ (Rect.block (s := S4x16384x256) S1x4096x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x256.size a ≤ S4x16384x256.size a
  hwx0_1 : ∀ i : grid0.Coords, EltTy.bits .f32 = 32 ∨ (Rect.block (s := S4x16384x256) S1x4096x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x256.size a ≤ S4x256x256.size a
  hwx0_2 : ∀ i : grid0.Coords, EltTy.bits .f32 = 32 ∨ (Rect.block (s := S4x256x256) S1x256x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x4096x256.size a ≤ S4x16384x256.size a
  hwx1_0 : ∀ i : grid1.Coords, EltTy.bits .f32 = 32 ∨ (Rect.block (s := S4x16384x256) S1x4096x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256x256.size a ≤ S4x256x256.size a
  hwx1_1 : ∀ i : grid1.Coords, EltTy.bits .f32 = 32 ∨ (Rect.block (s := S4x256x256) S1x256x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x4096x256.size a ≤ S4x16384x256.size a
  hwx1_2 : ∀ i : grid1.Coords, EltTy.bits .f32 = 32 ∨ (Rect.block (s := S4x16384x256) S1x4096x256.size (cc1_transform_2 i) (hinb1_2 i)).WholeWords (EltTy.packing .f32)

variable [Facts₀]

def dot_S4096x256_S4096x256_S256x256_0_0_1_1_n_n : DotDims S4096x256 S4096x256 S256x256 where
  lhsContracting := [0]
  rhsContracting := [0]
  lhsNonContracting := [1]
  rhsNonContracting := [1]
  lhsBatch := []
  rhsBatch := []
  wf := dot_S4096x256_S4096x256_S256x256_0_0_1_1_n_n_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf

abbrev win0_0 : Pipeline.Window sig grid0 :=
  Pipeline.Window.ofSpec (Memref.whole main_arg1) S1x4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x4096x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S1x4096x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1x256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x4096x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4x16384x256 : Shape := ⟨3, ![4, 16384, 256]⟩
abbrev S_ : Shape := ⟨0, ![]⟩
abbrev S4x256x256 : Shape := ⟨3, ![4, 256, 256]⟩
abbrev S4x16384 : Shape := ⟨2, ![4, 16384]⟩
abbrev S4x16384x1 : Shape := ⟨3, ![4, 16384, 1]⟩

abbrev nBuf : Space → Nat
  | .hbm => 19
  | .vmem => 0
  | .smem => 0
  | _ => 0

abbrev bufTy : (tb : Table) → Fin (tcTables nBuf tb) → BufTy
  | .hbm, ⟨0, _⟩ => ⟨S4x16384x256, .f32⟩
  | .hbm, ⟨1, _⟩ => ⟨S4x16384x256, .f32⟩
  | .hbm, ⟨2, _⟩ => ⟨S4x16384x256, .f32⟩
  | .hbm, ⟨3, _⟩ => ⟨S_, .f32⟩
  | .hbm, ⟨4, _⟩ => ⟨S4x16384x256, .f32⟩
  | .hbm, ⟨5, _⟩ => ⟨S4x16384x256, .f32⟩
  | .hbm, ⟨6, _⟩ => ⟨S_, .f32⟩
  | .hbm, ⟨7, _⟩ => ⟨S4x16384x256, .f32⟩
  | .hbm, ⟨8, _⟩ => ⟨S4x16384x256, .f32⟩
  | .hbm, ⟨9, _⟩ => ⟨S4x256x256, .f32⟩
  | .hbm, ⟨10, _⟩ => ⟨S4x16384x256, .f32⟩
  | .hbm, ⟨11, _⟩ => ⟨S_, .f32⟩
  | .hbm, ⟨12, _⟩ => ⟨S4x16384, .f32⟩
  | .hbm, ⟨13, _⟩ => ⟨S4x16384x1, .f32⟩
  | .hbm, ⟨14, _⟩ => ⟨S_, .f32⟩
  | .hbm, ⟨15, _⟩ => ⟨S4x16384x1, .f32⟩
  | .hbm, ⟨16, _⟩ => ⟨S4x16384x1, .f32⟩
  | .hbm, ⟨17, _⟩ => ⟨S4x16384x256, .f32⟩
  | .hbm, ⟨18, _⟩ => ⟨S4x16384x256, .f32⟩
  | _, _ => ⟨S4x16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_call1_cst : Ref sig .tc := ⟨.hbm, 6, rfl⟩
abbrev main_call1_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩

abbrev nD : Nat := 1
abbrev τ : Topo := Topo.v7x

variable {F : FTy → Type} [FloatOps F]

class Facts₀ : Prop where
  bcast_S_S4x16384x256 : S_.BroadcastsInDim S4x16384x256 (![] : Fin 0 → Fin S4x16384x256.rank)
  reducesTo_S4x16384x256_S4x16384_d2 : S4x16384x256.ReducesTo [2] S4x16384
  h_S_ : 0 < S_.numel
  bcast_S4x16384_S4x16384x1_0_1 : S4x16384.BroadcastsInDim S4x16384x1 (![0, 1] : Fin 2 → Fin S4x16384x1.rank)
  bcast_S_S4x16384x1 : S_.BroadcastsInDim S4x16384x1 (![] : Fin 0 → Fin S4x16384x1.rank)
  bcast_S4x16384x1_S4x16384x256_0_1_2 : S4x16384x1.BroadcastsInDim S4x16384x256 (![0, 1, 2] : Fin 3 → Fin S4x16384x256.rank)
  dot_S4x16384x256_S4x16384x256_S4x256x256_1_1_2_2_0_0_wf : DotDims.WF S4x16384x256 S4x16384x256 S4x256x256 [1] [1] [2] [2] [0] [0]
  dot_S4x16384x256_S4x256x256_S4x16384x256_2_1_1_2_0_0_wf : DotDims.WF S4x16384x256 S4x256x256 S4x16384x256 [2] [1] [1] [2] [0] [0]

variable [Facts₀]

def dot_S4x16384x256_S4x16384x256_S4x256x256_1_1_2_2_0_0 : DotDims S4x16384x256 S4x16384x256 S4x256x256 where
  lhsContracting := [1]
  rhsContracting := [1]
  lhsNonContracting := [2]
  rhsNonContracting := [2]
  lhsBatch := [0]
  rhsBatch := [0]
  wf := dot_S4x16384x256_S4x16384x256_S4x256x256_1_1_2_2_0_0_wf
def dot_S4x16384x256_S4x256x256_S4x16384x256_2_1_1_2_0_0 : DotDims S4x16384x256 S4x256x256 S4x16384x256 where
  lhsContracting := [2]
  rhsContracting := [1]
  lhsNonContracting := [1]
  rhsNonContracting := [2]
  lhsBatch := [0]
  rhsBatch := [0]
  wf := dot_S4x16384x256_S4x256x256_S4x16384x256_2_1_1_2_0_0_wf

class Facts : Prop extends Facts₀ where

variable [Facts]
-- ==== Proof.Spec.lean ====
/-
  Linear attention with a rectifier feature map, as ONE function of the three argument arrays
  q, k, v : [4, 16384, 256] over the extended reals:

      kv[b, d, e]   = Σ_n  relu(k[b, n, d]) · v[b, n, e]                      (n over the 16384 rows)
      out[b, n, e]  = (Σ_d relu(q[b, n, d]) · kv[b, d, e]) / (Σ_d relu(q[b, n, d]) + ε)

  with relu(x) = max x 0 (the zero kept as the zero word's value) and ε the word 0x322BCC77 both programs use.
  The quotient is the extended reals' division the two programs share; nothing here needs a finite input.

  The one law between the two arrangements of the computation: a sum over the 16384 rows is the sum, over the
  four tiles of 4096 consecutive rows, of the tiles' sums — a re-indexing of a finite sum in a commutative monoid.
-/
import Idealize.ShloMosaic.PureOps.Ideal
import Idealize.ShloMosaic.PureOps.Ideal.Laws
import Idealize.ShloMosaic.Lib.ValueIdx

noncomputable section

namespace Cert.LinAttn

open Idealize.ShloMosaic Idealize.ShloMosaic.ValueIdx

/-- The shape of q, k, v and of the result. -/
abbrev SArg : Shape := ⟨3, ![4, 16384, 256]⟩
/-- The shape of the intermediate kv. -/
abbrev SKV : Shape := ⟨3, ![4, 256, 256]⟩

/-- The rectifier: the larger of `x` and the value of the zero word. -/
def relu (x : EReal) : EReal := max x (Ideal.ofBits .f32 0x00000000#32)

/-- The denominator's ε, the value of the word both programs carry. -/
def eps : EReal := Ideal.ofBits .f32 0x322BCC77#32

/-- kv[b, d, e]: the sum over all rows `n` of relu(k[b, n, d]) · v[b, n, e]. -/
def kv (k v : SArg.Idx → EReal) (b : Fin 4) (d e : Fin 256) : EReal :=
  ∑ n : Fin 16384, relu (k (ix3 b n d)) * v (ix3 b n e)

/-- kv as an array of shape [4, 256, 256]. -/
def kvArr (k v : SArg.Idx → EReal) : SKV.Idx → EReal := fun j => kv k v (j 0) (j 1) (j 2)

/-- out[b, n, e] from q and ANY [4, 256, 256] array `w` in kv's place. -/
def out (q : SArg.Idx → EReal) (w : SKV.Idx → EReal) (b : Fin 4) (n : Fin 16384) (e : Fin 256) : EReal :=
  Ideal.div (∑ d : Fin 256, relu (q (ix3 b n d)) * w (ix3 b d e)) ((∑ d : Fin 256, relu (q (ix3 b n d))) + eps)

/-- out as an array of shape [4, 16384, 256]. -/
def outArr (q : SArg.Idx → EReal) (w : SKV.Idx → EReal) : SArg.Idx → EReal := fun i => out q w (i 0) (i 1) (i 2)

/-- The result: out of q and kv of k, v. -/
def result (q k v : SArg.Idx → EReal) : SArg.Idx → EReal := outArr q (kvArr k v)

/-! ## Rows by tiles -/

/-- Row `j` of tile `s`: the tiles are 4096 consecutive rows each. -/
def tileRow (s : Fin 4) (j : Fin 4096) : Fin 16384 := ⟨4096 * s.val + j.val, by omega⟩

/-- A sum over the 16384 rows is the sum over the four tiles of each tile's sum over its 4096 rows. -/
theorem sum_rows {β : Type*} [AddCommMonoid β] (F : Fin 16384 → β) :
    ∑ n, F n = ∑ s : Fin 4, ∑ j : Fin 4096, F (tileRow s j) := by
  have e := Equiv.sum_comp (finProdFinEquiv (m := 4) (n := 4096)) (fun n : Fin (4 * 4096) => F n)
  rw [Fintype.sum_prod_type] at e
  refine e.symm.trans ?_
  refine Finset.sum_congr rfl fun s _ => Finset.sum_congr rfl fun j _ => congrArg F (Fin.ext ?_)
  show j.val + 4096 * s.val = 4096 * s.val + j.val
  omega

/-- The 16 grid points of either region, in order, are (batch, tile) = (t / 4, t % 4): the batch a point works on, -/
def batchOf (t : ℕ) : Fin 4 := ⟨t / 4 % 4, Nat.mod_lt _ (by decide)⟩
/-- and its row tile within the batch. -/
def tileOf (t : ℕ) : Fin 4 := ⟨t % 4, Nat.mod_lt _ (by decide)⟩

/-- One tile's share of kv[b, d, e]: the sum over the tile's 4096 rows. -/
def kvTile (k v : SArg.Idx → EReal) (b : Fin 4) (s : Fin 4) (d e : Fin 256) : EReal :=
  ∑ j : Fin 4096, relu (k (ix3 b (tileRow s j) d)) * v (ix3 b (tileRow s j) e)

/-- kv is the sum of its four tiles' shares. -/
theorem kv_eq_tiles (k v : SArg.Idx → EReal) (b : Fin 4) (d e : Fin 256) :
    kv k v b d e = ∑ s : Fin 4, kvTile k v b s d e :=
  sum_rows fun n => relu (k (ix3 b n d)) * v (ix3 b n e)

end Cert.LinAttn

end
-- ==== Proof.RefSpec.lean ====
/-
  The reference program, read stage by stage, is the specification's linear attention.

  At an output index (b, n, e) the reference computes, in program order:
    * the rectified q and the rectified k — each the elementwise maximum of the argument with a broadcast zero word,
      which is the specification's relu at every index;
    * kv — a batched contraction of the rectified k with v over the 16384 rows (batch axis 0):
        kv[b, d, e] = Σ_n relu(k[b, n, d]) · v[b, n, e],   the specification's kv;
    * the numerator — a batched contraction of the rectified q with kv over the 256 features:
        num[b, n, e] = Σ_d relu(q[b, n, d]) · kv[b, d, e];
    * the denominator — the sum of the rectified q over the last axis, started from the zero word's value,
      then ε added; it is kept as a [4, 16384, 1] column and broadcast back along the last axis, so at (b, n, e) it is
        den[b, n] = (0 + Σ_d relu(q[b, n, d])) + ε;
    * the quotient num / den, the extended reals' division.

  The specification's out[b, n, e] is the same quotient with denominator (Σ_d relu(q[b, n, d])) + ε. The only change of
  form is dropping the sum's initial zero: the zero word's value is the real 0, and 0 + s = s. The zero word inside the
  rectifier is left as it is, on both sides.

  The remaining steps are bookkeeping of indices: each contraction or broadcast reads its operands at an index
  assembled from the coordinates of the output index, and those assembled indices are the plain triples (b, n, d),
  (b, d, e), (b, n, e) the specification uses.
-/
import proofs.«130537_j6571299963366_2_alg».proof.Proof.Gen.ReferenceIdeal.Read
import proofs.«130537_j6571299963366_2_alg».proof.Proof.Spec

noncomputable section

namespace Cert.LinAttn.RefSpec

open Idealize.ShloMosaic Idealize.ShloMosaic.ValueIdx Cert.ReferenceIdeal Cert.ReferenceIdeal.Read

/-! ## The rectified arguments -/

/-- The reference's rectified first argument is relu of the argument, index by index: the maximum with the
    broadcast zero word. -/
theorem v0_eq (x : (⟨S4x16384x256, .f32⟩ : BufTy).Contents (Elt Ideal)) (j : S4x16384x256.Idx) :
    val_main_v0 (F := Ideal) x j = relu (x j) := by
  rw [val_main_v0_apply, val_main_call0_v0_apply, val_main_call0_cst_apply]
  rfl

/-- The same for the reference's rectified second argument. -/
theorem v1_eq (x : (⟨S4x16384x256, .f32⟩ : BufTy).Contents (Elt Ideal)) (j : S4x16384x256.Idx) :
    val_main_v1 (F := Ideal) x j = relu (x j) := by
  rw [val_main_v1_apply, val_main_call1_v0_apply, val_main_call1_cst_apply]
  rfl

/-! ## The indices the stages read at -/

/-- kv[b, d, e]'s term for row n reads the rectified k at (b, n, d). -/
theorem lidx2 (b : Fin 4) (d e : Fin 256) (n : Fin 16384) :
    lidx_main_v2 (ix3 b d e) n = ix3 b n d :=
  funext fun a => Fin.ext (by match a with | ⟨0, _⟩ => rfl | ⟨1, _⟩ => rfl | ⟨2, _⟩ => rfl)

/-- kv[b, d, e]'s term for row n reads v at (b, n, e). -/
theorem ridx2 (b : Fin 4) (d e : Fin 256) (n : Fin 16384) :
    ridx_main_v2 (ix3 b d e) n = ix3 b n e :=
  funext fun a => Fin.ext (by match a with | ⟨0, _⟩ => rfl | ⟨1, _⟩ => rfl | ⟨2, _⟩ => rfl)

/-- The numerator at (b, n, e): its term for feature d reads the rectified q at (b, n, d). -/
theorem lidx3 (b : Fin 4) (n : Fin 16384) (e d : Fin 256) :
    lidx_main_v3 (ix3 b n e) d = ix3 b n d :=
  funext fun a => Fin.ext (by match a with | ⟨0, _⟩ => rfl | ⟨1, _⟩ => rfl | ⟨2, _⟩ => rfl)

/-- The numerator at (b, n, e): its term for feature d reads kv at (b, d, e). -/
theorem ridx3 (b : Fin 4) (n : Fin 16384) (e d : Fin 256) :
    ridx_main_v3 (ix3 b n e) d = ix3 b d e :=
  funext fun a => Fin.ext (by match a with | ⟨0, _⟩ => rfl | ⟨1, _⟩ => rfl | ⟨2, _⟩ => rfl)

/-- The denominator at (b, n, e), through the broadcast along the last axis, the [4, 16384, 1] column and the
    sum over the last axis: its term for feature d reads the rectified q at (b, n, d), whatever e is. -/
theorem idx458 (b : Fin 4) (n : Fin 16384) (e d : Fin 256) :
    idx_main_v4 (idx_main_v5 (idx_main_v8 (ix3 b n e))) d = ix3 b n d :=
  funext fun a => Fin.ext (by match a with | ⟨0, _⟩ => rfl | ⟨1, _⟩ => rfl | ⟨2, _⟩ => rfl)

/-! ## The first contraction is kv -/

/-- The reference's contraction of the rectified k with v over the rows is the specification's kv array. -/
theorem v2_eq (k v : (⟨S4x16384x256, .f32⟩ : BufTy).Contents (Elt Ideal)) (b : Fin 4) (d e : Fin 256) :
    val_main_v2 (F := Ideal) k v (ix3 b d e) = kvArr k v (ix3 b d e) := by
  rw [val_main_v2_apply]
  show _ = ∑ n : Fin 16384, relu (k (ix3 b n d)) * v (ix3 b n e)
  refine Finset.sum_congr rfl fun n _ => ?_
  rw [lidx2, ridx2, v1_eq]

/-! ## The reference is the specification -/

/-- The reference's result is the specification's: at (b, n, e) both are
    (Σ_d relu(q[b, n, d]) · kv[b, d, e]) / ((Σ_d relu(q[b, n, d])) + ε), once the reference's denominator
    (0 + Σ_d relu(q[b, n, d])) + ε has lost the sum's initial zero. -/
theorem ref_eq (q k v : (⟨Cert.ReferenceIdeal.S4x16384x256, .f32⟩ : BufTy).Contents (Elt Ideal)) :
    Cert.ReferenceIdeal.Read.val_main_v9 (F := Ideal) q k v = Cert.LinAttn.result q k v := by
  funext i
  obtain ⟨b, n, e, rfl⟩ : ∃ (b : Fin 4) (n : Fin 16384) (e : Fin 256), i = ValueIdx.ix3 b n e :=
    ⟨i 0, i 1, i 2, ValueIdx.eq_ix3 i⟩
  -- the quotient of the second contraction by the broadcast column (sum from the zero word, plus ε)
  rw [val_main_v9_apply, val_main_v3_apply, val_main_v8_apply, val_main_v7_apply, val_main_v5_apply,
    val_main_v4_apply, val_main_v6_apply, val_main_cst_0_apply, val_main_cst_apply]
  -- the numerator's sum, term by term
  have hnum : (∑ d : Fin 256, val_main_v0 (F := Ideal) q (lidx_main_v3 (ix3 b n e) d)
        * val_main_v2 (F := Ideal) k v (ridx_main_v3 (ix3 b n e) d))
      = ∑ d : Fin 256, relu (q (ix3 b n d)) * kvArr k v (ix3 b d e) :=
    Finset.sum_congr rfl fun d _ => by rw [lidx3, ridx3, v0_eq, v2_eq]
  -- the denominator's sum, term by term
  have hden : (∑ d : Fin 256, val_main_v0 (F := Ideal) q (idx_main_v4 (idx_main_v5 (idx_main_v8 (ix3 b n e))) d))
      = ∑ d : Fin 256, relu (q (ix3 b n d)) :=
    Finset.sum_congr rfl fun d _ => by rw [idx458, v0_eq]
  -- the sum's initial value is the zero word's value, the real 0 (relu stays folded, so its zero word is untouched)
  rw [hnum, hden, Ideal.hostDivf_def, Ideal.addf_def, Ideal.ofBits_def, Ideal.ofBits_def,
    Ideal.ofBits_zero_f32, zero_add]
  rfl

end Cert.LinAttn.RefSpec

end
-- ==== Proof.RunMain.lean ====
/-
  The idealized kernel's run with its result named. The program is two pipelined regions in a row: the first leaves
  the [4, 256, 256] intermediate in its own buffer, the second reads it and leaves the [4, 16384, 256] result. Every
  weakly fair execution ends with the result buffer holding what the second region's write-backs leave of it, the
  second region having been entered from what the first one's write-backs left; the three arguments end as launched.
  The launch is the library's theorem for a program given as a list of segments, at the generated segments; only the
  final reading differs from the frame: the result buffer is read off the last boundary's contents as well.
-/
import proofs.«130537_j6571299963366_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the last boundary's contents
    (what the second region's write-backs leave) and the argument arrays as launched. -/
theorem run_main : θ_run defs (onTc (τ := τ) (main (F := F))) ⟨m, fun _ => 0, ρ⟩ (fun r => ∀ c : Dev nD,
      r.2.mem ((c.tc : Thread nD τ).loc main_v1) = W2 m ρ c (Proc.devRef .tc main_v1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c =>
      ⟨h c _ (mem_uc main_v1 (by decide)),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c)⟩)

/-- The result buffer's last contents are the second region's result array after all its write-backs. -/
theorem W2_result (c : Dev nD) : W2 m ρ c (Proc.devRef .tc main_v1) = (dat1 (V1 m ρ) c).arrAt 2 cfg1.N :=
  W2_arr m ρ c 2

/-- The second region finds q as launched: the first region does not touch it. -/
theorem V1_q (c : Dev nD) : V1 m ρ c main_arg0 = m ((c : Thread nD τ).loc main_arg0) :=
  (W1_of_ne m ρ c main_arg0 (by decide)).trans rfl

/-- The second region finds, in the intermediate's buffer, the first region's result array after all its write-backs. -/
theorem V1_kv (c : Dev nD) : V1 m ρ c main_v0 = (dat0 (V0 m ρ) c).arrAt 2 cfg0.N :=
  W1_arr m ρ c 2

/-- The first region finds k and v as launched. -/
theorem V0_k (c : Dev nD) : V0 m ρ c main_arg1 = m ((c : Thread nD τ).loc main_arg1) := rfl
theorem V0_v (c : Dev nD) : V0 m ρ c main_arg2 = m ((c : Thread nD τ).loc main_arg2) := rfl

end Cert.KernelIdeal.RunValue

end
-- ==== Proof.CasesKV.lean ====
/-
  What one grid point of the first region leaves in the intermediate's staging block, for each of the two cases of
  the body's conditional, at any float instance.

  The body, at a point of a batch's FIRST row tile, first stores the zero block and then reads it back; at every
  point it loads its tile of k and its tile of v, forms the tile's share  relu(k)ᵀ · v  of the [256, 256] product
  into a zero accumulator, adds it to what the block holds, and stores the sum over the whole block. So the block
  ends at  payload(k tile, v tile, Z)  with Z the zero block at a first tile, and at  payload(k tile, v tile, prev)
  with prev the block's contents from the point before at every other tile — one covering store in both cases.
-/
import proofs.«130537_j6571299963366_2_alg».proof.Proof.Gen.KernelIdeal.Frame
import Idealize.ShloMosaic.Lib.Pipeline.Value
import Idealize.ShloMosaic.Lib.Tactic

set_option maxRecDepth 16384

noncomputable section

namespace Cert.KernelIdeal.KVValue

open Cert.KernelIdeal Cert.KernelIdeal.Gen
open Idealize.ShloMosaic Idealize.ShloMosaic.TcCoe Idealize.SL.Sem Idealize.ShloMosaic.Tactic

variable {F : FTy → Type} [FloatOps F]

/-- The zero offsets of a rank-3 access, as the constant function. -/
theorem hz3 : (![0, 0, 0] : Fin 3 → Nat) = fun _ => 0 := funext fun a => by fin_cases a <;> rfl

/-- A later tile: the block held `xo`; it ends at the payload of the two input tiles and `xo`. -/
theorem out_B (c : Dev nD) (i : grid0.Coords) (a2 : Memref sig .tc .vmem S1x4096x256 .f32) (h2 : a2.IsWhole)
    (a3 : Memref sig .tc .vmem S1x4096x256 .f32) (h3 : a3.IsWhole) (a4 : Memref sig .tc .vmem S1x256x256 .f32) (h4 : a4.IsWhole)
    (hc : ¬cond0_0 i) (x0 x1 : Vec F S1x4096x256 .f32) (xo : Vec F S1x256x256 .f32) :
    out0_B_2 c i a2 h2 a3 h3 a4 h4 hc x0 x1 xo = k0_pay2 x0 x1 xo := by
  unfold out0_B_2
  rw [View.read_writes_eq_canon _ _ _ (cover0_B_2 c i a2 h2 a3 h3 a4 h4 hc x0 x1 xo)]
  unfold kernelRun0_B
  dsimp only
  rw [View.canon_unit_zero hz3]
  simp only [View.readAt_eq_ld, h2.read_unread, h3.read_unread, h4.read_unread,
    View.ld_unit_zero (S := S1x4096x256) hz3, View.ld_unit_zero (S := S1x256x256) hz3]

/-- A first tile: the zero block is stored and read back; the block ends at the payload of the two input tiles and
    the zero block. -/
theorem out_A (c : Dev nD) (i : grid0.Coords) (a2 : Memref sig .tc .vmem S1x4096x256 .f32) (h2 : a2.IsWhole)
    (a3 : Memref sig .tc .vmem S1x4096x256 .f32) (h3 : a3.IsWhole) (a4 : Memref sig .tc .vmem S1x256x256 .f32) (h4 : a4.IsWhole)
    (hc : cond0_0 i) (x0 x1 : Vec F S1x4096x256 .f32) :
    out0_A_2 c i a2 h2 a3 h3 a4 h4 hc x0 x1 = k0_pay2 x0 x1 (k0_pay1 (F := F)) := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S1x256x256) hz3, View.readCov_unit_zero (S := S1x256x256) _ hz3]
  simp only [View.readAt_eq_ld, h2.read_unread, h3.read_unread,
    View.ld_unit_zero (S := S1x4096x256) hz3]

end Cert.KernelIdeal.KVValue

end
-- ==== Proof.PayKV.lean ====
/-
  The first region's stored values read at an index, at the ideal values.

  The zero block is the zero word's value everywhere. The block a point stores holds, at (d, e),

      acc[d, e] + Σ_n max(ktile[n, d], 0) · vtile[n, e]          (n over the tile's 4096 rows)

  where acc is what the block held: the two changes of float format are the identity on extended reals, the
  matrix product into a zero accumulator contracts the row axis of both tiles, and the casts between the
  [1, ·, ·] blocks and their [·, ·] matrices keep every entry at its place.
-/
import proofs.«130537_j6571299963366_2_alg».proof.Proof.Gen.KernelIdeal.Skeleton
import Idealize.ShloMosaic.Lib.Pipeline.Value
import Idealize.ShloMosaic.Lib.ValueIdx
import Idealize.ShloMosaic.PureOps.Ideal.Laws

set_option maxRecDepth 16384

noncomputable section

namespace Cert.KernelIdeal.KVValue

open Cert.KernelIdeal Cert.KernelIdeal.Gen
open Idealize.ShloMosaic Idealize.ShloMosaic.ValueIdx

/-- Dropping the leading unit coordinate of a [1, a, b] index given by coordinates. -/
theorem tail_ix3 {a b : ℕ} (u : Fin 1) (d : Fin a) (e : Fin b) :
    (fun x : Fin 2 => (ix3 u d e : (⟨3, ![1, a, b]⟩ : Shape).Idx) x.succ) = ix2 d e :=
  funext fun x => by match x with | ⟨0, _⟩ => rfl | ⟨1, _⟩ => rfl

/-- Putting the leading unit coordinate back. -/
theorem cons_ix2 {a b : ℕ} (d : Fin a) (e : Fin b) :
    (Fin.cons (⟨0, Nat.one_pos⟩ : Fin 1) (ix2 d e : (⟨2, ![a, b]⟩ : Shape).Idx) : (⟨3, ![1, a, b]⟩ : Shape).Idx) = ix3 (0 : Fin 1) d e :=
  funext fun x => by match x with | ⟨0, _⟩ => rfl | ⟨1, _⟩ => rfl | ⟨2, _⟩ => rfl

/-- The zero block holds the zero word's value at every index. -/
theorem pay1_apply (y : S1x256x256.Idx) : k0_pay1 (F := Ideal) y = Ideal.ofBits .f32 0x00000000#32 := by
  unfold k0_pay1
  exact shapeCast_addUnit_apply ![256, 256] _ _ y

/-- The first matrix product's operand indices: it contracts axis 0 of both [4096, 256] tiles. -/
theorem lhs0 (i : S256x256.Idx) (q : dot_S4096x256_S4096x256_S256x256_0_0_1_1_n_n.contr.Idx) :
    (dot_S4096x256_S4096x256_S256x256_0_0_1_1_n_n.lhsIdx i q 0).val = (q ⟨0, by decide⟩).val :=
  dot_S4096x256_S4096x256_S256x256_0_0_1_1_n_n.lhsIdx_val_of_single rfl i q
theorem lhs1 (i : S256x256.Idx) (q : dot_S4096x256_S4096x256_S256x256_0_0_1_1_n_n.contr.Idx) :
    (dot_S4096x256_S4096x256_S256x256_0_0_1_1_n_n.lhsIdx i q 1).val = (i 0).val := by
  unfold DotDims.lhsIdx
  rw [dif_neg (show ¬(1 : Fin S4096x256.rank) ∈ dot_S4096x256_S4096x256_S256x256_0_0_1_1_n_n.lhsBatch by decide), dif_pos (show (1 : Fin S4096x256.rank) ∈ dot_S4096x256_S4096x256_S256x256_0_0_1_1_n_n.lhsNonContracting by decide)]
  rfl
theorem rhs0 (i : S256x256.Idx) (q : dot_S4096x256_S4096x256_S256x256_0_0_1_1_n_n.contr.Idx) :
    (dot_S4096x256_S4096x256_S256x256_0_0_1_1_n_n.rhsIdx i q 0).val = (q ⟨0, by decide⟩).val :=
  dot_S4096x256_S4096x256_S256x256_0_0_1_1_n_n.rhsIdx_val_of_single rfl i q
theorem rhs1 (i : S256x256.Idx) (q : dot_S4096x256_S4096x256_S256x256_0_0_1_1_n_n.contr.Idx) :
    (dot_S4096x256_S4096x256_S256x256_0_0_1_1_n_n.rhsIdx i q 1).val = (i 1).val := by
  unfold DotDims.rhsIdx
  rw [dif_neg (show ¬(1 : Fin S4096x256.rank) ∈ dot_S4096x256_S4096x256_S256x256_0_0_1_1_n_n.rhsBatch by decide), dif_pos (show (1 : Fin S4096x256.rank) ∈ dot_S4096x256_S4096x256_S256x256_0_0_1_1_n_n.rhsNonContracting by decide)]
  rfl

/-- The stored block at (d, e): what the block held there, plus the sum over the tile's rows `n` of
    max(ktile[n, d], 0) · vtile[n, e]. -/
theorem pay2_apply (x0 x1 : Vec Ideal S1x4096x256 .f32) (xo : Vec Ideal S1x256x256 .f32) (u : Fin 1) (d e : Fin 256) :
    k0_pay2 x0 x1 xo (ix3 u d e)
      = xo (ix3 (0 : Fin 1) d e)
        + ∑ n : Fin 4096, max (x0 (ix3 (0 : Fin 1) n d)) (Ideal.ofBits .f32 0x00000000#32) * x1 (ix3 (0 : Fin 1) n e) := by
  unfold k0_pay2
  refine (shapeCast_addUnit_apply ![256, 256] _ _ (ix3 u d e)).trans ?_
  rw [tail_ix3]
  refine congrArg₂ (· + ·) ?_ ?_
  · exact (shapeCast_dropUnit_apply ![256, 256] xo _ (ix2 d e)).trans (congrArg xo (cons_ix2 d e))
  · refine (Ideal.matmul_constant_zero_apply dot_S4096x256_S4096x256_S256x256_0_0_1_1_n_n none _ _ (ix2 d e)).trans ?_
    rw [← Equiv.sum_comp (contrEquiv1 dot_S4096x256_S4096x256_S256x256_0_0_1_1_n_n 4096 rfl rfl).symm]
    refine Finset.sum_congr rfl fun n _ => ?_
    have hk := contrEquiv1_symm_val dot_S4096x256_S4096x256_S256x256_0_0_1_1_n_n 4096 rfl rfl n
    have el : dot_S4096x256_S4096x256_S256x256_0_0_1_1_n_n.lhsIdx (ix2 d e) ((contrEquiv1 dot_S4096x256_S4096x256_S256x256_0_0_1_1_n_n 4096 rfl rfl).symm n) = ix2 n d :=
      funext fun a => Fin.ext (by
        match a with
        | ⟨0, _⟩ => exact (lhs0 _ _).trans hk
        | ⟨1, _⟩ => exact lhs1 _ _)
    have er : dot_S4096x256_S4096x256_S256x256_0_0_1_1_n_n.rhsIdx (ix2 d e) ((contrEquiv1 dot_S4096x256_S4096x256_S256x256_0_0_1_1_n_n 4096 rfl rfl).symm n) = ix2 n e :=
      funext fun a => Fin.ext (by
        match a with
        | ⟨0, _⟩ => exact (rhs0 _ _).trans hk
        | ⟨1, _⟩ => exact rhs1 _ _)
    rw [el, er]
    refine congrArg₂ (· * ·) ?_ ?_
    · refine congrArg₂ max ?_ rfl
      exact (shapeCast_dropUnit_apply ![4096, 256] x0 _ (ix2 n d)).trans (congrArg x0 (cons_ix2 n d))
    · exact (shapeCast_dropUnit_apply ![4096, 256] x1 _ (ix2 n e)).trans (congrArg x1 (cons_ix2 n e))

end Cert.KernelIdeal.KVValue

end
-- ==== Proof.KVRegion.lean ====
/-
  The first region's result array, for ANY contents `V` the region is entered from: after the region the
  [4, 256, 256] intermediate holds  kv(k, v)  of the second and third arguments' arrays as the region finds them.

  Point t works on batch t / 4 and row tile t % 4; its k and v blocks are the tile's 4096 rows of that batch, and
  the block of the intermediate it works in is the batch's whole [256, 256] matrix, which stays in its staging
  buffer over the batch's four points and is written back after the fourth. The buffer is reset to zero at the
  batch's first tile and takes one tile's share at every point, so after tile s it holds

      0 + share(tile 0) + … + share(tile s)                                   (the partial sums `kvUpTo`)

  — by induction on the point, never by listing the grid — and what the fourth point writes back is the sum of the
  four shares, which is the sum over all 16384 rows. The four write-backs (one per batch) tile the array.
-/
import proofs.«130537_j6571299963366_2_alg».proof.Proof.Gen.KernelIdeal.Frame
import proofs.«130537_j6571299963366_2_alg».proof.Proof.Spec
import proofs.«130537_j6571299963366_2_alg».proof.Proof.CasesKV
import proofs.«130537_j6571299963366_2_alg».proof.Proof.PayKV
import Idealize.ShloMosaic.Lib.Pipeline.Value

set_option maxRecDepth 16384

noncomputable section

namespace Cert.KernelIdeal.KVValue

open Cert.KernelIdeal Cert.KernelIdeal.Gen Cert.LinAttn
open Idealize.ShloMosaic Idealize.ShloMosaic.TcCoe Idealize.ShloMosaic.ValueIdx Idealize.SL.Sem
open Idealize.ShloMosaic.Pipeline (Dat)

/-- The block's contents at (d, e) after tile `s` of batch `b`: the zero word's value plus the shares of tiles 0 … s. -/
def kvUpTo (k v : SArg.Idx → EReal) (b : Fin 4) : ℕ → Fin 256 → Fin 256 → EReal
  | 0 => fun d e => Ideal.ofBits .f32 0x00000000#32 + kvTile k v b (tileOf 0) d e
  | s + 1 => fun d e => kvUpTo k v b s d e + kvTile k v b (tileOf (s + 1)) d e

/-- After the fourth tile the partial sum is kv: the zero is the real 0 and the four shares are all the rows. -/
theorem kvUpTo_three (k v : SArg.Idx → EReal) (b : Fin 4) (d e : Fin 256) : kvUpTo k v b 3 d e = kv k v b d e := by
  rw [kv_eq_tiles, Fin.sum_univ_four]
  show Ideal.ofBits .f32 0x00000000#32 + kvTile k v b (tileOf 0) d e + kvTile k v b (tileOf 1) d e
      + kvTile k v b (tileOf 2) d e + kvTile k v b (tileOf 3) d e = _
  rw [Ideal.ofBits_zero_f32, zero_add]
  rfl

/-- The stored block in the specification's terms: if the k and v tiles are rows of batch `b`, tile `s`, of arrays
    `k` and `v`, and the block held `acc` at (d, e), it now holds `acc` plus the tile's share there. -/
theorem pay2_block (k v : SArg.Idx → EReal) (b s : Fin 4) (x0 x1 : Vec Ideal S1x4096x256 .f32) (xo : Vec Ideal S1x256x256 .f32)
    (h0 : ∀ (n : Fin 4096) (d : Fin 256), x0 (ix3 (0 : Fin 1) n d) = k (ix3 b (tileRow s n) d))
    (h1 : ∀ (n : Fin 4096) (e : Fin 256), x1 (ix3 (0 : Fin 1) n e) = v (ix3 b (tileRow s n) e))
    (u : Fin 1) (d e : Fin 256) (acc : EReal) (ho : xo (ix3 (0 : Fin 1) d e) = acc) :
    k0_pay2 x0 x1 xo (ix3 u d e) = acc + kvTile k v b s d e := by
  rw [pay2_apply, ho]
  unfold kvTile relu
  exact congrArg (acc + ·) (Finset.sum_congr rfl fun n _ => by rw [h0, h1])

variable (V : (c : Dev nD) → (b : Ref sig .tc) → Buf (Elt Ideal) ((c : Thread nD τ).loc b))

/-- The printed index maps, decided over the grid: the k and v windows are at block (t / 4, t % 4, 0), the
    intermediate's window at block (t / 4, 0, 0). -/
theorem idx_facts : ∀ t : Fin cfg0.N,
    win0_0.index t (0 : Fin 3) = (batchOf t.val).val ∧ win0_0.index t (1 : Fin 3) = (tileOf t.val).val ∧ win0_0.index t (2 : Fin 3) = 0
    ∧ win0_1.index t (0 : Fin 3) = (batchOf t.val).val ∧ win0_1.index t (1 : Fin 3) = (tileOf t.val).val ∧ win0_1.index t (2 : Fin 3) = 0
    ∧ win0_2.index t (0 : Fin 3) = (batchOf t.val).val ∧ win0_2.index t (1 : Fin 3) = 0 ∧ win0_2.index t (2 : Fin 3) = 0 :=
  (by decide +kernel : ∀ t : Fin grid0.N, _)

/-- Point `t`'s k block is the tile's rows of its batch in the array the region finds. -/
theorem blk_k (c : Dev nD) (t : Fin cfg0.N) (n : Fin 4096) (d : Fin 256) :
    iblk0 V c 0 t (ix3 (0 : Fin 1) n d) = V c main_arg1 (ix3 (batchOf t.val) (tileRow (tileOf t.val) n) d : SArg.Idx) := by
  obtain ⟨e0, e1, e2, e3, e4, e5, e6, e7, e8⟩ := idx_facts t
  show V c main_arg1 (((cfg0.win 0).blk t).view.emb (ix3 (0 : Fin 1) n d)) = _
  refine congrArg (V c main_arg1) ?_
  funext a; apply Fin.ext
  have hn : n.val < 4096 := n.isLt
  match a with
  | ⟨0, _⟩ => show win0_0.index t (0 : Fin 3) * 1 + 1 * 0 = (batchOf t.val).val; omega
  | ⟨1, _⟩ => show win0_0.index t (1 : Fin 3) * 4096 + 1 * n.val = 4096 * (tileOf t.val).val + n.val; omega
  | ⟨2, _⟩ => show win0_0.index t (2 : Fin 3) * 256 + 1 * d.val = d.val; omega

/-- Point `t`'s v block likewise. -/
theorem blk_v (c : Dev nD) (t : Fin cfg0.N) (n : Fin 4096) (e : Fin 256) :
    iblk0 V c 1 t (ix3 (0 : Fin 1) n e) = V c main_arg2 (ix3 (batchOf t.val) (tileRow (tileOf t.val) n) e : SArg.Idx) := by
  obtain ⟨e0, e1, e2, e3, e4, e5, e6, e7, e8⟩ := idx_facts t
  show V c main_arg2 (((cfg0.win 1).blk t).view.emb (ix3 (0 : Fin 1) n e)) = _
  refine congrArg (V c main_arg2) ?_
  funext a; apply Fin.ext
  have hn : n.val < 4096 := n.isLt
  match a with
  | ⟨0, _⟩ => show win0_1.index t (0 : Fin 3) * 1 + 1 * 0 = (batchOf t.val).val; omega
  | ⟨1, _⟩ => show win0_1.index t (1 : Fin 3) * 4096 + 1 * n.val = 4096 * (tileOf t.val).val + n.val; omega
  | ⟨2, _⟩ => show win0_1.index t (2 : Fin 3) * 256 + 1 * e.val = e.val; omega

/-- WHAT THE STAGING BUFFER HOLDS after point `n`: the partial sum up to the point's tile, of its batch — by induction
    on the point: a first tile resets and adds its share, a later one adds its share to what the point before left. -/
theorem outsAt_eq (c : Dev nD) : ∀ (n : ℕ) (h : n < cfg0.N) (u : Fin 1) (d e : Fin 256),
    outsAt0 V c n h (ix3 u d e) = kvUpTo (V c main_arg1) (V c main_arg2) (batchOf n) (n % 4) d e
  | 0, h, u, d, e => by
    rw [outsAt0_A V c ⟨0, h⟩ rfl, out_A]
    exact pay2_block (V c main_arg1) (V c main_arg2) (batchOf 0) (tileOf 0) (iblk0 V c 0 ⟨0, h⟩) (iblk0 V c 1 ⟨0, h⟩) (k0_pay1 (F := Ideal))
      (fun n d => blk_k V c ⟨0, h⟩ n d) (fun n e => blk_v V c ⟨0, h⟩ n e) u d e (Ideal.ofBits .f32 0x00000000#32) (pay1_apply (ix3 (0 : Fin 1) d e))
  | n + 1, h, u, d, e => by
    have hN : n + 1 < 16 := lt_of_lt_of_eq h (show cfg0.N = 16 from N_0)
    by_cases h0 : (n + 1) % 4 = 0
    · have hA : (⟨n + 1, h⟩ : Fin cfg0.N).val % 4 = 0 := h0
      rw [outsAt0_A V c ⟨n + 1, h⟩ hA, out_A, h0]
      have hs : tileOf (n + 1) = tileOf 0 := Fin.ext (by show (n + 1) % 4 = 0 % 4; omega)
      show _ = Ideal.ofBits .f32 0x00000000#32 + kvTile (V c main_arg1) (V c main_arg2) (batchOf (n + 1)) (tileOf 0) d e
      rw [← hs]
      exact pay2_block (V c main_arg1) (V c main_arg2) (batchOf (n + 1)) (tileOf (n + 1)) (iblk0 V c 0 ⟨n + 1, h⟩) (iblk0 V c 1 ⟨n + 1, h⟩) (k0_pay1 (F := Ideal))
        (fun n' d => blk_k V c ⟨n + 1, h⟩ n' d) (fun n' e => blk_v V c ⟨n + 1, h⟩ n' e) u d e (Ideal.ofBits .f32 0x00000000#32) (pay1_apply (ix3 (0 : Fin 1) d e))
    · have hB : ¬(⟨n + 1, h⟩ : Fin cfg0.N).val % 4 = 0 := h0
      rw [outsAt0_B V c ⟨n + 1, h⟩ hB, out_B]
      have hb : batchOf n = batchOf (n + 1) := Fin.ext (by show n / 4 % 4 = (n + 1) / 4 % 4; omega)
      have hm : (n + 1) % 4 = n % 4 + 1 := by omega
      have hs : tileOf (n % 4 + 1) = tileOf (n + 1) := Fin.ext (by show (n % 4 + 1) % 4 = (n + 1) % 4; omega)
      rw [hm]
      show _ = kvUpTo (V c main_arg1) (V c main_arg2) (batchOf (n + 1)) (n % 4) d e
        + kvTile (V c main_arg1) (V c main_arg2) (batchOf (n + 1)) (tileOf (n % 4 + 1)) d e
      rw [hs]
      refine pay2_block (V c main_arg1) (V c main_arg2) (batchOf (n + 1)) (tileOf (n + 1)) (iblk0 V c 0 ⟨n + 1, h⟩) (iblk0 V c 1 ⟨n + 1, h⟩)
        (outsAt0 V c n (Nat.lt_of_succ_lt h))
        (fun n' d => blk_k V c ⟨n + 1, h⟩ n' d) (fun n' e => blk_v V c ⟨n + 1, h⟩ n' e) u d e
        (kvUpTo (V c main_arg1) (V c main_arg2) (batchOf (n + 1)) (n % 4) d e) ?_
      rw [outsAt_eq c n (Nat.lt_of_succ_lt h) 0 d e, hb]

/-- A [256, 256] table as a [1, 256, 256] block. -/
def blockOf (f : Fin 256 → Fin 256 → EReal) : Vec Ideal S1x256x256 .f32 := fun y => f (y 1) (y 2)

/-- The block at (d, e) is the table's entry. -/
theorem blockOf_apply (f : Fin 256 → Fin 256 → EReal) (u : Fin 1) (d e : Fin 256) : blockOf f (ix3 u d e) = f d e := rfl

/-- kv as an array, at an index given by coordinates. -/
theorem kvArr_apply (k v : SArg.Idx → EReal) (b : Fin 4) (d e : Fin 256) : kvArr k v (ix3 b d e) = kv k v b d e := rfl

/-- The same as an equation of blocks. -/
theorem outsAt_block (c : Dev nD) (n : ℕ) (h : n < cfg0.N) :
    outsAt0 V c n h = blockOf (kvUpTo (V c main_arg1) (V c main_arg2) (batchOf n) (n % 4)) :=
  funext fun j => by
    obtain ⟨u, d, e, rfl⟩ : ∃ (u : Fin 1) (d : Fin 256) (e : Fin 256), j = ix3 u d e := ⟨j 0, j 1, j 2, eq_ix3 j⟩
    exact outsAt_eq V c n h u d e

/-- WHAT A WRITING POINT WRITES BACK (the batch's fourth) is its block of kv(k, v). -/
theorem flushed_eq (c : Dev nD) (t : Fin cfg0.N) (hf : (cfg0.win 2).flush t = true) :
    (dat0 V c).flushed 2 t = ((cfg0.win 2).blk t).view.read (Elt Ideal) (kvArr (V c main_arg1) (V c main_arg2)) := by
  have h3 : t.val % 4 = 3 := (flush0_2 t).mp hf
  show (cfg0.win 2).cut (grid0.coords t) ((dat0 V c).after 2 t) = _
  rw [after0_2, outsAt_block V c t.val t.isLt, h3]
  obtain ⟨e0, e1, e2, e3, e4, e5, e6, e7, e8⟩ := idx_facts t
  funext j
  obtain ⟨u, d, e, rfl⟩ : ∃ (u : Fin 1) (d : Fin 256) (e : Fin 256), j = ix3 u d e := ⟨j 0, j 1, j 2, eq_ix3 j⟩
  have hu : u.val = 0 := by omega
  have hout : ((cfg0.win 2).blk t).view.emb (ix3 u d e) = (ix3 (batchOf t.val) d e : SKV.Idx) := by
    funext a; apply Fin.ext
    match a with
    | ⟨0, _⟩ => show win0_2.index t (0 : Fin 3) * 1 + 1 * u.val = (batchOf t.val).val; omega
    | ⟨1, _⟩ => show win0_2.index t (1 : Fin 3) * 256 + 1 * d.val = d.val; omega
    | ⟨2, _⟩ => show win0_2.index t (2 : Fin 3) * 256 + 1 * e.val = e.val; omega
  -- reading ANY array through the block at the block's index (d, e) reads the array at (batch, d, e)
  have key : ∀ W : SKV.Idx → EReal, View.read (Elt Ideal) ((cfg0.win 2).blk t).view W (ix3 u d e) = W (ix3 (batchOf t.val) d e) := fun W => by
    show W (((cfg0.win 2).blk t).view.emb (ix3 u d e)) = _
    rw [hout]
  -- the write-back moves the whole block: its entry (d, e) is the table's
  have L : (cfg0.win 2).cut (grid0.coords t) (blockOf (kvUpTo (V c main_arg1) (V c main_arg2) (batchOf t.val) 3)) (ix3 u d e)
      = kvUpTo (V c main_arg1) (V c main_arg2) (batchOf t.val) 3 d e := rfl
  refine L.trans (Eq.trans ?_ (key (kvArr (V c main_arg1) (V c main_arg2))).symm)
  rw [kvArr_apply, kvUpTo_three]

/-- An index of the intermediate is in point `t`'s block iff each coordinate is in the block's range on its axis. -/
theorem mem_blk (t : Fin cfg0.N) (i : S4x256x256.Idx) :
    i ∈ ((cfg0.win 2).blk t).view.set ↔ ∀ a : Fin 3, win0_2.index t a * S1x256x256.size a ≤ (i a).val ∧ (i a).val < win0_2.index t a * S1x256x256.size a + S1x256x256.size a := by
  show i ∈ ((View.whole main_v0).slice (win0_2.rect t)).set ↔ _
  rw [View.set_slice_whole, Rect.mem_set_unit]
  exact Iff.rfl

/-- Every index of the intermediate is in the block its batch's fourth point writes back. -/
theorem cover (i : S4x256x256.Idx) :
    ∃ t : Fin cfg0.N, (cfg0.win 2).flush t = true ∧ i ∈ ((cfg0.win 2).blk t).view.set := by
  have hi0 : (i 0).val < 4 := (i 0).isLt
  have hi1 : (i 1).val < 256 := (i 1).isLt
  have hi2 : (i 2).val < 256 := (i 2).isLt
  have hN : cfg0.N = 16 := N_0
  let t : Fin cfg0.N := ⟨4 * (i 0).val + 3, by rw [hN]; omega⟩
  refine ⟨t, (flush0_2 t).mpr (by show (4 * (i 0).val + 3) % 4 = 3; omega), ?_⟩
  rw [mem_blk]
  obtain ⟨e0, e1, e2, e3, e4, e5, e6, e7, e8⟩ := idx_facts t
  have hb : (batchOf t.val).val = (i 0).val := by show (4 * (i 0).val + 3) / 4 % 4 = _; omega
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 256 ≤ (i 1).val ∧ (i 1).val < win0_2.index t (1 : Fin 3) * 256 + 256; omega
  | ⟨2, _⟩ => show win0_2.index t (2 : Fin 3) * 256 ≤ (i 2).val ∧ (i 2).val < win0_2.index t (2 : Fin 3) * 256 + 256; omega

/-- THE INTERMEDIATE after the region: kv(k, v) of the arrays the region is entered from. -/
theorem final (c : Dev nD) : (dat0 V c).arrAt 2 cfg0.N = kvArr (V c main_arg1) (V c main_arg2) :=
  (dat0 V c).arrAt_eq_of_cover 2 (kvArr (V c main_arg1) (V c main_arg2)) (flushed_eq V c) cover

end Cert.KernelIdeal.KVValue

end
-- ==== Proof.LibKeepdims.lean ====
/-
  A vector kept as a column, read at an index: the two layout steps a row reduction with a kept axis goes through.
  A length-`a` vector cast to an `a × 1` column holds entry `i` at `(i, 0)` (the row-major position is unchanged),
  and an `a × 1` column broadcast to `a × b` holds, all along row `i`, the column's entry `(i, 0)`.
  (The transposed form, a `1 × a` row broadcast down the columns, and the transpose itself are in the library.)
-/
import Idealize.ShloMosaic.Lib.Pipeline.Value
import Idealize.ShloMosaic.Lib.ValueIdx

namespace Cert.Keepdims

open Idealize.ShloMosaic Idealize.ShloMosaic.ValueIdx

variable {α : Type}

/-- A length-`a` vector cast to an `a × 1` column reads, at `(i, u)`, the vector at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast to `a × b` reads, at `(i, j)`, the column at `(i, 0)`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

end Cert.Keepdims
-- ==== Proof.LibColumnCasts.lean ====
/-
  Shape casts between a vector and the column that holds it, read at an index given by coordinates.

  A vector of `a` entries and an `a` by 1 column list the same entries in the same row-major order, so a cast either
  way reads entry `i` of the one at row `i` of the other; likewise a scalar and a 1 by 1 array hold one entry.  These
  are the "keepdims" forms a row sum meets when its result is kept as a column: the vector-to-column cast after the
  sum, the column-to-vector cast when the column is handed back as a vector, and the scalar-to-array cast of a total.
  Also here: the sum over a vector's indices as the sum over its coordinates, and a lane sum over the second axis of a
  matrix at the ideal values, as the plain sum over the columns of one row.
-/
import Idealize.ShloMosaic.Lib.Pipeline.Value
import Idealize.ShloMosaic.Lib.ValueIdx
import Idealize.ShloMosaic.PureOps.Ideal.Laws

namespace Cert.ColumnCasts

open Idealize.ShloMosaic Idealize.ShloMosaic.ValueIdx
open scoped BigOperators

variable {α : Type}

/-- An `[a]` vector cast to an `[a, 1]` column reads, at `(i, u)`, the vector at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column cast to an `[a]` vector reads, at `i`, the column at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A scalar (rank 0) cast to a `[1, 1]` array reads, at its one index, the scalar: a rank-0 shape has one index. -/
theorem shapeCast_scalar_11_apply (x : (⟨0, ![]⟩ : Shape).Idx → α) (h : (⟨0, ![]⟩ : Shape).ShapeCasts ⟨2, ![1, 1]⟩)
    (j : (⟨2, ![1, 1]⟩ : Shape).Idx) : shapeCast ⟨2, ![1, 1]⟩ x h j = x ix0 :=
  congrArg x (funext fun d => d.elim0)

/-- The indices of a vector of `n` entries are its coordinates. -/
def vectorIdxEquiv {n : ℕ} : (⟨1, ![n]⟩ : Shape).Idx ≃ Fin n where
  toFun i := i 0
  invFun := ix1
  left_inv i := (eq_ix1 i).symm
  right_inv _ := rfl

/-- A sum over the indices of a vector is the sum over its coordinates. -/
theorem sum_vectorIdx {M : Type} [AddCommMonoid M] {n : ℕ} (f : (⟨1, ![n]⟩ : Shape).Idx → M) :
    ∑ i, f i = ∑ o : Fin n, f (ix1 o) :=
  (Equiv.sum_comp (vectorIdxEquiv (n := n)).symm f).symm

/-- At the ideal values the lane sum of an `[a, b]` matrix over its second axis is, at row `p`, the sum over the
    columns `k` of the entry `(p, k)`.  The accumulator is the zero word, which is the neutral element of the sum. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ src 0x00000000#32 h hφ hacc (ix1 p) = ∑ k : Fin b, src (ix2 p k) :=
  (Ideal.multiReduction_add_single src 0x00000000#32 h hφ hacc (ix1 p)).trans
    (Finset.sum_congr rfl fun k _ => congrArg src (funext fun d => Fin.ext (by
      match d with
      | ⟨0, _⟩ => rfl
      | ⟨1, _⟩ => rfl)))

end Cert.ColumnCasts
-- ==== Proof.PayOut.lean ====
/-
  The second region's stored block read at an index, at the ideal values. At row `n` and column `e` of the block,

      (Σ_d max(qtile[n, d], 0) · w[d, e]) / (Σ_d max(qtile[n, d], 0) + ε)

  with qtile the point's [4096, 256] tile of q and w the batch's [256, 256] block of the intermediate: the matrix
  product into a zero accumulator contracts the feature axis; the denominator is the lane sum of the rectified
  tile's row, kept as a column, plus ε, spread along the row; the changes of float format are the identity.
-/
import proofs.«130537_j6571299963366_2_alg».proof.Proof.Gen.KernelIdeal.Skeleton
import proofs.«130537_j6571299963366_2_alg».proof.Proof.PayKV
import proofs.«130537_j6571299963366_2_alg».proof.Proof.LibKeepdims
import proofs.«130537_j6571299963366_2_alg».proof.Proof.LibColumnCasts
import Idealize.ShloMosaic.Lib.Pipeline.Value
import Idealize.ShloMosaic.Lib.ValueIdx
import Idealize.ShloMosaic.PureOps.Ideal.Laws

set_option maxRecDepth 16384

noncomputable section

namespace Cert.KernelIdeal.OutValue

open Cert.KernelIdeal Cert.KernelIdeal.Gen Cert.KernelIdeal.KVValue
open Idealize.ShloMosaic Idealize.ShloMosaic.ValueIdx

/-- The second matrix product's operand indices: it contracts axis 1 of the [4096, 256] tile with axis 0 of the
    [256, 256] block. -/
theorem lhs0 (i : S4096x256.Idx) (q : dot_S4096x256_S256x256_S4096x256_1_0_0_1_n_n.contr.Idx) :
    (dot_S4096x256_S256x256_S4096x256_1_0_0_1_n_n.lhsIdx i q 0).val = (i 0).val := by
  unfold DotDims.lhsIdx
  rw [dif_neg (show ¬(0 : Fin S4096x256.rank) ∈ dot_S4096x256_S256x256_S4096x256_1_0_0_1_n_n.lhsBatch by decide), dif_pos (show (0 : Fin S4096x256.rank) ∈ dot_S4096x256_S256x256_S4096x256_1_0_0_1_n_n.lhsNonContracting by decide)]
  rfl
theorem lhs1 (i : S4096x256.Idx) (q : dot_S4096x256_S256x256_S4096x256_1_0_0_1_n_n.contr.Idx) :
    (dot_S4096x256_S256x256_S4096x256_1_0_0_1_n_n.lhsIdx i q 1).val = (q ⟨0, by decide⟩).val :=
  dot_S4096x256_S256x256_S4096x256_1_0_0_1_n_n.lhsIdx_val_of_single rfl i q
theorem rhs0 (i : S4096x256.Idx) (q : dot_S4096x256_S256x256_S4096x256_1_0_0_1_n_n.contr.Idx) :
    (dot_S4096x256_S256x256_S4096x256_1_0_0_1_n_n.rhsIdx i q 0).val = (q ⟨0, by decide⟩).val :=
  dot_S4096x256_S256x256_S4096x256_1_0_0_1_n_n.rhsIdx_val_of_single rfl i q
theorem rhs1 (i : S4096x256.Idx) (q : dot_S4096x256_S256x256_S4096x256_1_0_0_1_n_n.contr.Idx) :
    (dot_S4096x256_S256x256_S4096x256_1_0_0_1_n_n.rhsIdx i q 1).val = (i 1).val := by
  unfold DotDims.rhsIdx
  rw [dif_neg (show ¬(1 : Fin S256x256.rank) ∈ dot_S4096x256_S256x256_S4096x256_1_0_0_1_n_n.rhsBatch by decide), dif_pos (show (1 : Fin S256x256.rank) ∈ dot_S4096x256_S256x256_S4096x256_1_0_0_1_n_n.rhsNonContracting by decide)]
  rfl

/-- The rectified tile at (n, d). -/
theorem relu_tile_apply (x0 : Vec Ideal S1x4096x256 .f32) (n : Fin 4096) (d : Fin 256) :
    (maximumf (shapeCast S4096x256 x0 Facts₀.shapeCasts_S1x4096x256_S4096x256) (broadcast S4096x256 (Scalar.ofBits .f32 0x00000000#32)) : FVec Ideal S4096x256 .f32) (ix2 n d)
      = max (x0 (ix3 (0 : Fin 1) n d)) (Ideal.ofBits .f32 0x00000000#32) :=
  congrArg₂ max ((shapeCast_dropUnit_apply ![4096, 256] x0 _ (ix2 n d)).trans (congrArg x0 (cons_ix2 n d))) rfl

/-- The stored block at (n, e). -/
theorem pay_apply (x0 : Vec Ideal S1x4096x256 .f32) (x1 : Vec Ideal S1x256x256 .f32) (u : Fin 1) (n : Fin 4096) (e : Fin 256) :
    k1_pay1 x0 x1 (ix3 u n e)
      = Ideal.div (∑ d : Fin 256, max (x0 (ix3 (0 : Fin 1) n d)) (Ideal.ofBits .f32 0x00000000#32) * x1 (ix3 (0 : Fin 1) d e))
          ((∑ d : Fin 256, max (x0 (ix3 (0 : Fin 1) n d)) (Ideal.ofBits .f32 0x00000000#32)) + Ideal.ofBits .f32 0x322BCC77#32) := by
  unfold k1_pay1
  refine (shapeCast_addUnit_apply ![4096, 256] _ _ (ix3 u n e)).trans ?_
  rw [tail_ix3]
  refine congrArg₂ Ideal.div ?_ ?_
  · refine (Ideal.matmul_constant_zero_apply dot_S4096x256_S256x256_S4096x256_1_0_0_1_n_n none _ _ (ix2 n e)).trans ?_
    rw [← Equiv.sum_comp (contrEquiv1 dot_S4096x256_S256x256_S4096x256_1_0_0_1_n_n 256 rfl rfl).symm]
    refine Finset.sum_congr rfl fun d _ => ?_
    have hk := contrEquiv1_symm_val dot_S4096x256_S256x256_S4096x256_1_0_0_1_n_n 256 rfl rfl d
    have el : dot_S4096x256_S256x256_S4096x256_1_0_0_1_n_n.lhsIdx (ix2 n e) ((contrEquiv1 dot_S4096x256_S256x256_S4096x256_1_0_0_1_n_n 256 rfl rfl).symm d) = ix2 n d :=
      funext fun a => Fin.ext (by
        match a with
        | ⟨0, _⟩ => exact lhs0 _ _
        | ⟨1, _⟩ => exact (lhs1 _ _).trans hk)
    have er : dot_S4096x256_S256x256_S4096x256_1_0_0_1_n_n.rhsIdx (ix2 n e) ((contrEquiv1 dot_S4096x256_S256x256_S4096x256_1_0_0_1_n_n 256 rfl rfl).symm d) = ix2 d e :=
      funext fun a => Fin.ext (by
        match a with
        | ⟨0, _⟩ => exact (rhs0 _ _).trans hk
        | ⟨1, _⟩ => exact rhs1 _ _)
    rw [el, er]
    refine congrArg₂ (· * ·) (relu_tile_apply x0 n d) ?_
    exact (shapeCast_dropUnit_apply ![256, 256] x1 _ (ix2 d e)).trans (congrArg x1 (cons_ix2 d e))
  · refine (Cert.Keepdims.broadcastTo_a1_ab_apply _ _ n e).trans ?_
    refine congrArg₂ (· + ·) ?_ rfl
    refine (Cert.ColumnCasts.shapeCast_a_a1_apply _ _ n (0 : Fin 1)).trans ?_
    refine (Cert.ColumnCasts.rowSum_apply _ _ _ _ n).trans ?_
    exact Finset.sum_congr rfl fun d _ => relu_tile_apply x0 n d

end Cert.KernelIdeal.OutValue

end
-- ==== Proof.OutRegion.lean ====
/-
  The second region's result array, for ANY contents `V` the region is entered from: after its sixteen write-backs
  the [4, 16384, 256] result holds  out(q, w)  with q the first argument's array and w the intermediate's array as
  the region finds them.

  Point t works on batch t / 4 and row tile t % 4: its q block is rows 4096·(t % 4) … of batch t / 4, its block of
  the intermediate is the batch's whole [256, 256] matrix, and the block it writes back is the same rows of the
  result. Every point writes back, each its own block, and the sixteen blocks tile the result; so the array ends at
  the one function whose blocks these are.
-/
import proofs.«130537_j6571299963366_2_alg».proof.Proof.Gen.KernelIdeal.Frame
import proofs.«130537_j6571299963366_2_alg».proof.Proof.Spec
import proofs.«130537_j6571299963366_2_alg».proof.Proof.CasesKV
import proofs.«130537_j6571299963366_2_alg».proof.Proof.PayOut
import Idealize.ShloMosaic.Lib.Pipeline.Value

set_option maxRecDepth 16384

noncomputable section

namespace Cert.KernelIdeal.OutValue

open Cert.KernelIdeal Cert.KernelIdeal.Gen Cert.KernelIdeal.KVValue Cert.LinAttn
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The printed index maps, decided over the grid: the q window and the result window are at block
    (t / 4, t % 4, 0), the intermediate's window at block (t / 4, 0, 0). -/
theorem idx_facts : ∀ t : Fin cfg1.N,
    win1_0.index t (0 : Fin 3) = (batchOf t.val).val ∧ win1_0.index t (1 : Fin 3) = (tileOf t.val).val ∧ win1_0.index t (2 : Fin 3) = 0
    ∧ win1_1.index t (0 : Fin 3) = (batchOf t.val).val ∧ win1_1.index t (1 : Fin 3) = 0 ∧ win1_1.index t (2 : Fin 3) = 0
    ∧ win1_2.index t (0 : Fin 3) = (batchOf t.val).val ∧ win1_2.index t (1 : Fin 3) = (tileOf t.val).val ∧ win1_2.index t (2 : Fin 3) = 0 :=
  (by decide +kernel : ∀ t : Fin grid1.N, _)

/-- The stored block in the specification's terms: if the q tile is rows of batch `b`, tile `s`, of an array `q` and
    the other block is batch `b` of an array `w`, the block holds out(q, w) at those rows. -/
theorem pay_block (q : SArg.Idx → EReal) (w : SKV.Idx → EReal) (b s : Fin 4)
    (x0 : Vec Ideal S1x4096x256 .f32) (x1 : Vec Ideal S1x256x256 .f32)
    (h0 : ∀ (n : Fin 4096) (d : Fin 256), x0 (ix3 (0 : Fin 1) n d) = q (ix3 b (tileRow s n) d))
    (h1 : ∀ d e : Fin 256, x1 (ix3 (0 : Fin 1) d e) = w (ix3 b d e)) (u : Fin 1) (n : Fin 4096) (e : Fin 256) :
    k1_pay1 x0 x1 (ix3 u n e) = out q w b (tileRow s n) e := by
  rw [pay_apply]
  unfold out relu eps
  refine congrArg₂ Ideal.div ?_ ?_
  · exact Finset.sum_congr rfl fun d _ => by rw [h0, h1]
  · exact congrArg₂ (· + ·) (Finset.sum_congr rfl fun d _ => by rw [h0]) rfl

/-- WHAT POINT `t` WRITES BACK is block `t` of out(q, w) of the arrays as the region finds them. -/
theorem flushed_eq (c : Dev nD) (t : Fin cfg1.N) :
    (dat1 V c).flushed 2 t = ((cfg1.win 2).blk t).view.read (Elt Ideal) (outArr (V c main_arg0) (V c main_v0)) := by
  show (cfg1.win 2).cut (grid1.coords t) ((dat1 V c).after 2 t) = _
  rw [after1_2]
  unfold out1_2
  rw [View.canon_unit_zero hz3]
  simp only [View.ld_unit_zero (S := S1x4096x256) hz3, View.ld_unit_zero (S := S1x256x256) hz3]
  obtain ⟨e0, e1, e2, e3, e4, e5, e6, e7, e8⟩ := idx_facts t
  funext j
  obtain ⟨u, n, e, rfl⟩ : ∃ (u : Fin 1) (n : Fin 4096) (e : Fin 256), j = ix3 u n e := ⟨j 0, j 1, j 2, eq_ix3 j⟩
  have hu : u.val = 0 := by omega
  have hn : n.val < 4096 := n.isLt
  have he : e.val < 256 := e.isLt
  show k1_pay1 (iblk1 V c 0 t) (iblk1 V c 1 t) (ix3 u n e) = outArr (V c main_arg0) (V c main_v0) (((cfg1.win 2).blk t).view.emb (ix3 u n e))
  have hout : ((cfg1.win 2).blk t).view.emb (ix3 u n e) = (ix3 (batchOf t.val) (tileRow (tileOf t.val) n) e : SArg.Idx) := by
    funext a; apply Fin.ext
    match a with
    | ⟨0, _⟩ => show win1_2.index t (0 : Fin 3) * 1 + 1 * u.val = (batchOf t.val).val; omega
    | ⟨1, _⟩ => show win1_2.index t (1 : Fin 3) * 4096 + 1 * n.val = 4096 * (tileOf t.val).val + n.val; omega
    | ⟨2, _⟩ => show win1_2.index t (2 : Fin 3) * 256 + 1 * e.val = e.val; omega
  rw [hout]
  show _ = out (V c main_arg0) (V c main_v0) (batchOf t.val) (tileRow (tileOf t.val) n) e
  refine pay_block (V c main_arg0) (V c main_v0) (batchOf t.val) (tileOf t.val) _ _ (fun n d => ?_) (fun d e => ?_) u n e
  · show V c main_arg0 (((cfg1.win 0).blk t).view.emb (ix3 (0 : Fin 1) n d)) = _
    refine congrArg (V c main_arg0) ?_
    funext a; apply Fin.ext
    have hn : n.val < 4096 := n.isLt
    match a with
    | ⟨0, _⟩ => show win1_0.index t (0 : Fin 3) * 1 + 1 * 0 = (batchOf t.val).val; omega
    | ⟨1, _⟩ => show win1_0.index t (1 : Fin 3) * 4096 + 1 * n.val = 4096 * (tileOf t.val).val + n.val; omega
    | ⟨2, _⟩ => show win1_0.index t (2 : Fin 3) * 256 + 1 * d.val = d.val; omega
  · show V c main_v0 (((cfg1.win 1).blk t).view.emb (ix3 (0 : Fin 1) d e)) = _
    refine congrArg (V c main_v0) ?_
    funext a; apply Fin.ext
    match a with
    | ⟨0, _⟩ => show win1_1.index t (0 : Fin 3) * 1 + 1 * 0 = (batchOf t.val).val; omega
    | ⟨1, _⟩ => show win1_1.index t (1 : Fin 3) * 256 + 1 * d.val = d.val; omega
    | ⟨2, _⟩ => show win1_1.index t (2 : Fin 3) * 256 + 1 * e.val = e.val; omega

/-- An index of the result is in point `t`'s block iff each coordinate is in the block's range on its axis. -/
theorem mem_blk (t : Fin cfg1.N) (i : S4x16384x256.Idx) :
    i ∈ ((cfg1.win 2).blk t).view.set ↔ ∀ a : Fin 3, win1_2.index t a * S1x4096x256.size a ≤ (i a).val ∧ (i a).val < win1_2.index t a * S1x4096x256.size a + S1x4096x256.size a := by
  show i ∈ ((View.whole main_v1).slice (win1_2.rect t)).set ↔ _
  rw [View.set_slice_whole, Rect.mem_set_unit]
  exact Iff.rfl

/-- Every index of the result is in the block of the point of its batch and row tile. -/
theorem cover (i : S4x16384x256.Idx) :
    ∃ t : Fin cfg1.N, (cfg1.win 2).flush t = true ∧ i ∈ ((cfg1.win 2).blk t).view.set := by
  have hi0 : (i 0).val < 4 := (i 0).isLt
  have hi1 : (i 1).val < 16384 := (i 1).isLt
  have hi2 : (i 2).val < 256 := (i 2).isLt
  have hN : cfg1.N = 16 := N_1
  let t : Fin cfg1.N := ⟨4 * (i 0).val + (i 1).val / 4096, by rw [hN]; omega⟩
  refine ⟨t, flush1_2 t, ?_⟩
  rw [mem_blk]
  obtain ⟨e0, e1, e2, e3, e4, e5, e6, e7, e8⟩ := idx_facts t
  have hb : (batchOf t.val).val = (i 0).val := by show (4 * (i 0).val + (i 1).val / 4096) / 4 % 4 = _; omega
  have hs : (tileOf t.val).val = (i 1).val / 4096 := by show (4 * (i 0).val + (i 1).val / 4096) % 4 = _; omega
  intro a
  match a with
  | ⟨0, _⟩ => show win1_2.index t (0 : Fin 3) * 1 ≤ (i 0).val ∧ (i 0).val < win1_2.index t (0 : Fin 3) * 1 + 1; omega
  | ⟨1, _⟩ => show win1_2.index t (1 : Fin 3) * 4096 ≤ (i 1).val ∧ (i 1).val < win1_2.index t (1 : Fin 3) * 4096 + 4096; omega
  | ⟨2, _⟩ => show win1_2.index t (2 : Fin 3) * 256 ≤ (i 2).val ∧ (i 2).val < win1_2.index t (2 : Fin 3) * 256 + 256; omega

/-- THE RESULT ARRAY after the region: out(q, w) of the arrays the region is entered from. -/
theorem final (c : Dev nD) : (dat1 V c).arrAt 2 cfg1.N = outArr (V c main_arg0) (V c main_v0) :=
  (dat1 V c).arrAt_eq_of_cover 2 (outArr (V c main_arg0) (V c main_v0)) (fun t _ => flushed_eq V c t) cover

end Cert.KernelIdeal.OutValue

end
-- ==== Proof.lean ====
/-
  The kernel computes linear attention with a rectifier feature map in two passes, and so does the reference:

      kv[b, d, e]  = Σ_n  relu(k[b, n, d]) · v[b, n, e]
      out[b, n, e] = (Σ_d relu(q[b, n, d]) · kv[b, d, e]) / (Σ_d relu(q[b, n, d]) + ε)

  over q, k, v : [4, 16384, 256]. The kernel's first pass sums kv over four row tiles of 4096 rows into a block it
  keeps across the tiles (reset to zero at the first); its second pass forms out one row tile at a time from the
  finished kv. At the ideal values the changes of float format are the identity, a matrix product into a zero
  accumulator and a lane sum are plain finite sums, and the two programs' divisions are one function; the only
  difference of arrangement is the row sum taken tile by tile, which is a re-indexing of a finite sum in a commutative
  monoid (no distributive law, so no finiteness of the inputs is used). Both programs end at the one function
  `Cert.LinAttn.result` of the three arguments.

  The three frames are the generated runs; the idealization rewrote nothing, so its faithfulness is trivial.
-/
import proofs.«130537_j6571299963366_2_alg».proof.Defs
import proofs.«130537_j6571299963366_2_alg».proof.Proof.Gen.Kernel
import proofs.«130537_j6571299963366_2_alg».proof.Proof.Gen.Kernel.Skeleton
import proofs.«130537_j6571299963366_2_alg».proof.Proof.Gen.Kernel.Launch
import proofs.«130537_j6571299963366_2_alg».proof.Proof.Gen.Kernel.Points
import proofs.«130537_j6571299963366_2_alg».proof.Proof.Gen.Kernel.Frame
import proofs.«130537_j6571299963366_2_alg».proof.Proof.Gen.KernelIdeal
import proofs.«130537_j6571299963366_2_alg».proof.Proof.Gen.KernelIdeal.Skeleton
import proofs.«130537_j6571299963366_2_alg».proof.Proof.Gen.KernelIdeal.Launch
import proofs.«130537_j6571299963366_2_alg».proof.Proof.Gen.KernelIdeal.Points
import proofs.«130537_j6571299963366_2_alg».proof.Proof.Gen.KernelIdeal.Frame
import proofs.«130537_j6571299963366_2_alg».proof.Proof.Gen.ReferenceIdeal
import proofs.«130537_j6571299963366_2_alg».proof.Proof.Gen.Pre_finite_inputs
import proofs.«130537_j6571299963366_2_alg».proof.Proof.Gen.ReferenceIdeal.Run
import proofs.«130537_j6571299963366_2_alg».proof.Proof.Gen.ReferenceIdeal.Read
import proofs.«130537_j6571299963366_2_alg».proof.Proof.Spec
import proofs.«130537_j6571299963366_2_alg».proof.Proof.RefSpec
import proofs.«130537_j6571299963366_2_alg».proof.Proof.RunMain
import proofs.«130537_j6571299963366_2_alg».proof.Proof.KVRegion
import proofs.«130537_j6571299963366_2_alg».proof.Proof.OutRegion
import Idealize.ShloMosaic.Adequacy
import Idealize.ShloMosaic.Init

noncomputable section

namespace Cert.Proof

open Idealize.ShloMosaic Idealize.ShloMosaic.TcCoe Idealize.SL.Sem

/-- What the kernel's result buffer ends holding: the second pass's array is out(q, w) of what it finds, it finds q
    as launched and, in w's place, the first pass's array, which is kv(k, v) of k and v as launched. -/
theorem kernel_value (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.KernelIdeal.Gen.W2 m ρ c (Proc.devRef .tc Cert.KernelIdeal.main_v1)
      = Cert.LinAttn.result (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2)) := by
  rw [Cert.KernelIdeal.RunValue.W2_result, Cert.KernelIdeal.OutValue.final (Cert.KernelIdeal.Gen.V1 m ρ) c,
    Cert.KernelIdeal.RunValue.V1_q, Cert.KernelIdeal.RunValue.V1_kv, Cert.KernelIdeal.KVValue.final (Cert.KernelIdeal.Gen.V0 m ρ) c]
  rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end at `Cert.LinAttn.result` of arguments that agree. -/
theorem algebraic : Cert.algebraic_KernelIdeal_ReferenceIdeal := by
  intro m ρ m' ρ' _ hagree
  refine ⟨fun c => Cert.LinAttn.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono (fun r h c => ⟨(h c).1.trans (kernel_value m ρ c), (h c).2⟩)
      (Cert.KernelIdeal.RunValue.run_main (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v9_eq, Cert.LinAttn.RefSpec.ref_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
